-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S1600000 : Shape := ⟨1, ![1600000]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel

variable [Facts]

def fn {F : FTy → Type} [FloatOps F] (main_arg0 : FVec F S100000x48 .f32) (main_arg1 : IVec S1600000 32) (main_arg2 : IVec S1600000 32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  main_v3
-- ==== Kernel.lean ====
abbrev S100000x48 : Shape := ⟨2, ![100000, 48]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S8192x48 : Shape := ⟨2, ![8192, 48]⟩
abbrev S8192x1 : Shape := ⟨2, ![8192, 1]⟩
abbrev S8192 : Shape := ⟨1, ![8192]⟩
abbrev S100000 : Shape := ⟨1, ![100000]⟩

abbrev nBuf : Space → Nat
  | .hbm => 44
  | .vmem => 6
  | .smem => 0
  | _ => 0

abbrev bufTy : (tb : Table) → Fin (tcTables nBuf tb) → BufTy
  | .hbm, ⟨0, _⟩ => ⟨S100000x48, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x48, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S1600000x1, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .local _ .vmem, ⟨0, _⟩ => ⟨S8192x48, .f32⟩
  | .local _ .vmem, ⟨1, _⟩ => ⟨S8192x48, .f32⟩
  | .local _ .vmem, ⟨2, _⟩ => ⟨S8192x48, .f32⟩
  | .local _ .vmem, ⟨3, _⟩ => ⟨S8192x48, .f32⟩
  | .local _ .vmem, ⟨4, _⟩ => ⟨S8192x1, .f32⟩
  | .local _ .vmem, ⟨5, _⟩ => ⟨S8192x1, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  reduces_S8192x48_S8192 : S8192x48.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S1600000x1_S1600000 : S1600000x1.ShapeCasts S1600000
  bcast_S_S100000 : S_.BroadcastsInDim S100000 (![] : Fin 0 → Fin S100000.rank)
  gather_S100000x48_S1600000x1_S1600000x48_1_0_n_n_0_1_148_wf : GatherDims.WF S100000x48 S1600000x1 S1600000x48 [1] [0] [] [0] [] 1 ![1, 48]
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x48.size a < S1600000x48.size a
  hwx0_0 : ∀ i : grid0.Coords, EltTy.bits .f32 = 32 ∨ (Rect.unit (s := S1600000x48) (fun a => cc0_transform_0 i a * S8192x48.size a) (fun a => (Pipeline.Clip.of (cc0_transform_0 i a) (S8192x48.size a) (S1600000x48.size a)).extent (S8192x48.size a)) fun a => Pipeline.Clip.inb (Pipeline.Clip.ok_of (hstart0_0 i a))).WholeWords (EltTy.packing .f32)
  hwxs0_0 : ∀ i : grid0.Coords, EltTy.bits .f32 = 32 ∨ (Rect.unit (s := S8192x48) (fun _ => 0) (fun a => (Pipeline.Clip.of (cc0_transform_0 i a) (S8192x48.size a) (S1600000x48.size a)).extent (S8192x48.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x48.size a < S1600000x48.size a
  hwx0_1 : ∀ i : grid0.Coords, EltTy.bits .f32 = 32 ∨ (Rect.unit (s := S1600000x48) (fun a => cc0_transform_1 i a * S8192x48.size a) (fun a => (Pipeline.Clip.of (cc0_transform_1 i a) (S8192x48.size a) (S1600000x48.size a)).extent (S8192x48.size a)) fun a => Pipeline.Clip.inb (Pipeline.Clip.ok_of (hstart0_1 i a))).WholeWords (EltTy.packing .f32)
  hwxs0_1 : ∀ i : grid0.Coords, EltTy.bits .f32 = 32 ∨ (Rect.unit (s := S8192x48) (fun _ => 0) (fun a => (Pipeline.Clip.of (cc0_transform_1 i a) (S8192x48.size a) (S1600000x48.size a)).extent (S8192x48.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x1.size a < S1600000x1.size a
  hwx0_2 : ∀ i : grid0.Coords, EltTy.bits .f32 = 32 ∨ (Rect.unit (s := S1600000x1) (fun a => cc0_transform_2 i a * S8192x1.size a) (fun a => (Pipeline.Clip.of (cc0_transform_2 i a) (S8192x1.size a) (S1600000x1.size a)).extent (S8192x1.size a)) fun a => Pipeline.Clip.inb (Pipeline.Clip.ok_of (hstart0_2 i a))).WholeWords (EltTy.packing .f32)
  hwxs0_2 : ∀ i : grid0.Coords, EltTy.bits .f32 = 32 ∨ (Rect.unit (s := S8192x1) (fun _ => 0) (fun a => (Pipeline.Clip.of (cc0_transform_2 i a) (S8192x1.size a) (S1600000x1.size a)).extent (S8192x1.size a)) fun a => (Nat.zero_add _).trans_le (Pipeline.Clip.extent_le (Pipeline.Clip.ok_of (hstart0_2 i a)))).WholeWords (EltTy.packing .f32)

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpecClip (Memref.whole main_v6) S8192x48.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v13) S8192x48.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v14) S8192x1.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x48 : Shape := ⟨2, ![100000, 48]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S100000 : Shape := ⟨1, ![100000]⟩

abbrev nBuf : Space → Nat
  | .hbm => 58
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x48, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x48, .f32⟩
  | .hbm, ⟨21, _⟩ => ⟨S1600000x48, .f32⟩
  | .hbm, ⟨22, _⟩ => ⟨S_, .f32⟩
  | .hbm, ⟨23, _⟩ => ⟨S1600000, .f32⟩
  | .hbm, ⟨24, _⟩ => ⟨S1600000x48, .f32⟩
  | .hbm, ⟨25, _⟩ => ⟨S_, .f32⟩
  | .hbm, ⟨26, _⟩ => ⟨S1600000, .f32⟩
  | .hbm, ⟨27, _⟩ => ⟨S1600000, .f32⟩
  | .hbm, ⟨28, _⟩ => ⟨S1600000x48, .f32⟩
  | .hbm, ⟨29, _⟩ => ⟨S_, .f32⟩
  | .hbm, ⟨30, _⟩ => ⟨S1600000, .f32⟩
  | .hbm, ⟨31, _⟩ => ⟨S1600000, .f32⟩
  | .hbm, ⟨32, _⟩ => ⟨S1600000, .f32⟩
  | .hbm, ⟨33, _⟩ => ⟨S_, .f32⟩
  | .hbm, ⟨34, _⟩ => ⟨S1600000, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .i1⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000, .f32⟩
  | .hbm, ⟨54, _⟩ => ⟨S_, .f32⟩
  | .hbm, ⟨55, _⟩ => ⟨S_, .f32⟩
  | .hbm, ⟨56, _⟩ => ⟨S100000, .f32⟩
  | .hbm, ⟨57, _⟩ => ⟨S100000, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v16 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x48_S1600000_d1 : S1600000x48.ReducesTo [1] S1600000
  h_S_ : 0 < S_.numel
  bcast_S_S100000 : S_.BroadcastsInDim S100000 (![] : Fin 0 → Fin S100000.rank)
  gather_S100000x48_S1600000x1_S1600000x48_1_0_n_n_0_1_148_wf : GatherDims.WF S100000x48 S1600000x1 S1600000x48 [1] [0] [] [0] [] 1 ![1, 48]
  scatter_S100000_S1600000x1_S1600000_n_0_0_1_wf : ScatterDims.WF S100000 S1600000x1 S1600000 [] [0] [0] 1

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.BodyBits.lean ====
/-
  The kernel body at one grid point, as a triple: it reads its two input staging buffers whole (8192 rows of 48
  lanes each), reads the result's buffer (a value nothing uses), and overwrites the result's buffer whole with the
  per-row quotient  (Σₖ aₖ·bₖ) / max(√(Σₖ aₖ²)·√(Σₖ bₖ²), ε)  computed from the two inputs; the inputs' buffers are
  left as they were. Stated for any float instance: nothing here looks inside the arithmetic.
-/
import proofs.«161603_j33457795236058_2_alg».proof.Proof.Gen.Kernel.Skeleton
import proofs.«161603_j33457795236058_2_alg».proof.Proof.Gen.Kernel.Frame
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 8192×48 rectangle the two loads read, and the whole 8192×1 rectangle the store writes. -/
abbrev rIn : Rect S8192x48 := Rect.unit (s := S8192x48) ![0, 0] S8192x48.size inb_S8192x48_S8192x48_0_0
abbrev rOut : Rect S8192x1 := Rect.unit (s := S8192x1) ![0, 0] S8192x1.size inb_S8192x1_S8192x1_0_0

/-- What the result's staging buffer holds after the body, from what the two input buffers hold: the one store,
    which covers the buffer, of the payload of the two whole loads. -/
def outBlock (x0 x1 : Vec F S8192x48 .f32) : Vec F S8192x1 .f32 :=
  View.canon [⟨rOut, k0_pay1 (View.ld x0 rIn) (View.ld x1 rIn)⟩]

/-- The store's rectangle is the whole buffer, so it covers it. -/
theorem outCover (p0 : Vec F S8192x1 .f32) (y : S8192x1.Idx) :
    ∃ pc ∈ ([⟨rOut, p0⟩] : List (View.Piece (Elt F) S8192x1 .f32)), y ∈ pc.1.set :=
  View.cover_of_tiled [⟨rOut, p0⟩] S8192x1.size (by rfl) y

set_option maxHeartbeats 1000000 in
/-- The body on whole staging memrefs: the inputs' at contents `x0`, `x1`, the result's at anything; it runs to the
    continuation with the inputs' unchanged and the result's at `outBlock x0 x1`. -/
theorem sound_kernel (c : Dev nD) (E : Set ℕ) (i : grid0.Coords)
    (arg1 : Memref sig .tc .vmem S8192x48 .f32) (harg1 : arg1.IsWhole)
    (arg2 : Memref sig .tc .vmem S8192x48 .f32) (harg2 : arg2.IsWhole)
    (arg3 : Memref sig .tc .vmem S8192x1 .f32) (harg3 : arg3.IsWhole)
    (x0 x1 : Vec F S8192x48 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__cosine_sim_kernel i arg1 harg1 arg2 harg2 arg3 harg3) K := by
  simp only [cc0__cosine_sim_kernel_eq_skeleton]; unfold cc0__cosine_sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Kernel.Body

end
-- ==== Proof.FrameBits.lean ====
/-
  The word-level kernel program runs to the end, faults nowhere and leaves its three arguments as it found them.
  At word level the row sum is a function nothing is known of, so what the body writes into the result's buffer at an
  edge block (whose staging rows past the array's end hold words nothing names) cannot be named; the frame does not
  need it: none of the three staged arrays is an argument. So the pipeline's windows are all handed to the body at
  some contents and taken back at some contents, the body's triple is only that it runs, and the arguments are
  among the buffers that bypass the region and that no later operation writes.
-/
import proofs.«161603_j33457795236058_2_alg».proof.Proof.BodyBits
import proofs.«161603_j33457795236058_2_alg».proof.Proof.Gen.Kernel.Points
import Idealize.ShloMosaic.Lib.Pipeline.FrameSuffix

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel.Body

variable (m : (ℓ : Loc nD τ sig) → Buf (Elt F) ℓ) (ρ : Dev nD → PrngReg)

/-- Every window is handed over and taken back at contents nothing states. -/
def forgetsAll : Fin 3 → Bool := fun _ => true

/-- The proof data: the staged arrays as the region finds them; nothing named of what the body leaves. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: the invariant, what the core owes, and the three current staging
    buffers at some contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it returns: the same, at some contents. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

/-- The body at any point runs, whatever the buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (sound_kernel c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ forgetsAll := fun t => by
  rw [bigSep_W0, bigSep_W0]
  exact sound_body m c t

/-! ## The buffers the later operations may write -/

/-- Every TensorCore buffer but the three arguments. -/
def notArgs : Finset (Ref sig .tc) := Finset.univ.filter fun b => b ≠ main_arg0 ∧ b ≠ main_arg1 ∧ b ≠ main_arg2

/-- No operation after the region writes argument 0. -/
theorem tail_keeps_arg0 : ∀ op ∈ (hostOps1 ++ hostOps1_1 : List (HloOp τ sig (Elt F))), Proc.devRef .tc main_arg0 ∉ op.writes :=
  List.forall_iff_forall_mem.mp (by
    simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes argument 1. -/
theorem tail_keeps_arg1 : ∀ op ∈ (hostOps1 ++ hostOps1_1 : List (HloOp τ sig (Elt F))), Proc.devRef .tc main_arg1 ∉ op.writes :=
  List.forall_iff_forall_mem.mp (by
    simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes argument 2. -/
theorem tail_keeps_arg2 : ∀ op ∈ (hostOps1 ++ hostOps1_1 : List (HloOp τ sig (Elt F))), Proc.devRef .tc main_arg2 ∉ op.writes :=
  List.forall_iff_forall_mem.mp (by
    simp only [hostOps1, hostOps1_1, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- So whatever an operation after the region writes is no argument. -/
theorem tail_writes : ∀ ops ∈ ([hostOps1, hostOps1_1] : List (List (HloOp τ sig (Elt F)))), ∀ op ∈ ops,
    ∀ b : Ref sig .tc, Proc.devRef .tc b ∈ op.writes → b ∈ notArgs := by
  intro ops hops op hop b hb
  have hmem : op ∈ (hostOps1 ++ hostOps1_1 : List (HloOp τ sig (Elt F))) := by
    simp only [List.mem_cons, List.mem_nil_iff, or_false] at hops
    rcases hops with rfl | rfl
    · exact List.mem_append_left _ hop
    · exact List.mem_append_right _ hop
  unfold notArgs
  rw [Finset.mem_filter]
  refine ⟨Finset.mem_univ _, fun h => ?_, fun h => ?_, fun h => ?_⟩
  · subst h; exact tail_keeps_arg0 op hmem hb
  · subst h; exact tail_keeps_arg1 op hmem hb
  · subst h; exact tail_keeps_arg2 op hmem hb

/-! ## The run and the frame -/

set_option backward.isDefEq.respectTransparency.types false in
/-- Every weakly fair execution of @main terminates, and every buffer that bypasses the region and is an argument
    ends at its contents at the region's entry. -/
theorem run_main : θ_run defs (onTc (τ := τ) (main (F := F))) (s₀ m ρ)
    (Pipeline.RDat.FramePostR (cfgs 0) (fun c => (dats m 0 c).toRForget forgetsAll) notArgs (fun c b => V0 m c (Proc.devRef .tc b))) :=
  Pipeline.RDat.θ_run_frame_around_T cfgs (0 : Fin 1) launch0 defs₀ Variants.none (fun c => (dats m 0 c).toRForget forgetsAll) notArgs m ρ main
    (hbody := fun c => (body_obligation m c).toRForget)
    (hshare := fun c => ((dats m 0 c).toRForget forgetsAll).share_full fun _ => rfl)
    (howed := fun _ _ => rfl) (V₀ := V0 m) (opss := [hostOps1, hostOps1_1]) (hsub := sfx_sub) (hfresh := sfx_fresh) (hkeep := sfx_keeps)
    (hT := tail_writes) (hmain := hmain m Variants.none) (hA := A_eq m) (hΦ := fun _ _ => rfl)

theorem arg0_mem : main_arg0 ∈ Pipeline.restRefs sig (cfgs 0).spec \ notArgs :=
  Finset.mem_sdiff.mpr ⟨Pipeline.mem_restRefs_of main_arg0 (by decide) (by decide), fun h => (Finset.mem_filter.mp h).2.1 rfl⟩
theorem arg1_mem : main_arg1 ∈ Pipeline.restRefs sig (cfgs 0).spec \ notArgs :=
  Finset.mem_sdiff.mpr ⟨Pipeline.mem_restRefs_of main_arg1 (by decide) (by decide), fun h => (Finset.mem_filter.mp h).2.2.1 rfl⟩
theorem arg2_mem : main_arg2 ∈ Pipeline.restRefs sig (cfgs 0).spec \ notArgs :=
  Finset.mem_sdiff.mpr ⟨Pipeline.mem_restRefs_of main_arg2 (by decide) (by decide), fun h => (Finset.mem_filter.mp h).2.2.2 rfl⟩

/-- The frame: the program terminates, faults nowhere, and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 arg0_mem).trans (V_main_arg0 m c),
     ((h c).2 main_arg1 arg1_mem).trans (V_main_arg1 m c),
     ((h c).2 main_arg2 arg2_mem).trans (V_main_arg2 m c)⟩) (run_main m ρ)

end Cert.Kernel.FrameRun

end
-- ==== Proof.BodyIdeal.lean ====
/-
  The kernel body at one grid point, as a triple: it reads its two input staging buffers whole (8192 rows of 48
  lanes each), reads the result's buffer (a value nothing uses), and overwrites the result's buffer whole with the
  per-row quotient  (Σₖ aₖ·bₖ) / max(√(Σₖ aₖ²)·√(Σₖ bₖ²), ε)  computed from the two inputs; the inputs' buffers are
  left as they were. Stated for any float instance: nothing here looks inside the arithmetic.
-/
import proofs.«161603_j33457795236058_2_alg».proof.Proof.Gen.KernelIdeal.Skeleton
import proofs.«161603_j33457795236058_2_alg».proof.Proof.Gen.KernelIdeal.Frame
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 8192×48 rectangle the two loads read, and the whole 8192×1 rectangle the store writes. -/
abbrev rIn : Rect S8192x48 := Rect.unit (s := S8192x48) ![0, 0] S8192x48.size inb_S8192x48_S8192x48_0_0
abbrev rOut : Rect S8192x1 := Rect.unit (s := S8192x1) ![0, 0] S8192x1.size inb_S8192x1_S8192x1_0_0

/-- What the result's staging buffer holds after the body, from what the two input buffers hold: the one store,
    which covers the buffer, of the payload of the two whole loads. -/
def outBlock (x0 x1 : Vec F S8192x48 .f32) : Vec F S8192x1 .f32 :=
  View.canon [⟨rOut, k0_pay1 (View.ld x0 rIn) (View.ld x1 rIn)⟩]

/-- The store's rectangle is the whole buffer, so it covers it. -/
theorem outCover (p0 : Vec F S8192x1 .f32) (y : S8192x1.Idx) :
    ∃ pc ∈ ([⟨rOut, p0⟩] : List (View.Piece (Elt F) S8192x1 .f32)), y ∈ pc.1.set :=
  View.cover_of_tiled [⟨rOut, p0⟩] S8192x1.size (by rfl) y

set_option maxHeartbeats 1000000 in
/-- The body on whole staging memrefs: the inputs' at contents `x0`, `x1`, the result's at anything; it runs to the
    continuation with the inputs' unchanged and the result's at `outBlock x0 x1`. -/
theorem sound_kernel (c : Dev nD) (E : Set ℕ) (i : grid0.Coords)
    (arg1 : Memref sig .tc .vmem S8192x48 .f32) (harg1 : arg1.IsWhole)
    (arg2 : Memref sig .tc .vmem S8192x48 .f32) (harg2 : arg2.IsWhole)
    (arg3 : Memref sig .tc .vmem S8192x1 .f32) (harg3 : arg3.IsWhole)
    (x0 x1 : Vec F S8192x48 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlock x0 x1)) -∗ K ⟨⟩))
      ⊢ wp frame (wpE (defs₀ (F := F)) Variants.none c none) E (cc0__cosine_sim_kernel i arg1 harg1 arg2 harg2 arg3 harg3) K := by
  simp only [cc0__cosine_sim_kernel_eq_skeleton]; unfold cc0__cosine_sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.KernelIdeal.Body

end
-- ==== Proof.Spec.lean ====
/-
  The per-edge value both programs compute, on the extended reals: for two rows a, b of 48 numbers,
      simRow a b = (Σₖ aₖ·bₖ) / max(√(Σₖ aₖ²) · √(Σₖ bₖ²), ε),
  the quotient, square root and maximum being the exact ones of the extended reals and ε the value of the f32 word
  0x322BCC77 (the same word in both programs, so never evaluated).
-/
import Idealize.ShloMosaic.PureOps.Ideal
import Idealize.ShloMosaic.PureOps.Ideal.Laws
import Idealize.ShloMosaic.Lib.ValueIdx

noncomputable section

namespace Cert.CosSim

open Idealize.ShloMosaic

/-- The clamp under the quotient. -/
def eps : EReal := Ideal.ofBits .f32 0x322BCC77#32

/-- A row's inner product with another over the larger of the product of their norms and ε. -/
def simRow (a b : Fin 48 → EReal) : EReal :=
  Ideal.div (∑ k : Fin 48, a k * b k)
    (max (Ideal.sqrt (∑ k : Fin 48, a k * a k) * Ideal.sqrt (∑ k : Fin 48, b k * b k)) eps)

/-- Rows that agree entry by entry give the same value. -/
theorem simRow_congr {a a' b b' : Fin 48 → EReal} (ha : ∀ k, a k = a' k) (hb : ∀ k, b k = b' k) :
    simRow a b = simRow a' b' := by
  rw [show a = a' from funext ha, show b = b' from funext hb]

end Cert.CosSim

end
-- ==== Proof.PayRow.lean ====
/-
  The body's arithmetic read at a row, on the extended reals: entry (r, 0) of what the body stores is `simRow` of row r
  of its first input block and row r of its second.  The three lane sums are plain sums over the row's 48 entries; the
  casts between [8192] and [8192, 1] keep the row; everything else acts entry by entry.
-/
import proofs.«161603_j33457795236058_2_alg».proof.Proof.Gen.KernelIdeal.Skeleton
import proofs.«161603_j33457795236058_2_alg».proof.Proof.Spec
import Idealize.ShloMosaic.Lib.ValueIdx
import Idealize.ShloMosaic.Lib.Pipeline.Value
import Idealize.ShloMosaic.PureOps.Ideal.Laws

noncomputable section

namespace Cert.KernelIdeal.PayRow

open Cert.KernelIdeal Cert.KernelIdeal.Gen Cert.CosSim
open Idealize.ShloMosaic Idealize.ShloMosaic.ValueIdx

/-- Reading a vector of 8192 numbers laid out as an 8192×1 column keeps the row. -/
theorem col_apply (v : FVec Ideal S8192 .f32) (r : Fin 8192) :
    shapeCast S8192x1 v shapeCasts_S8192_S8192x1 (ix2 r (0 : Fin 1)) = v (ix1 r) :=
  shapeCast_apply v _ _ (ix1 r) (by
    rw [Shape.rowMajor_val_one, Shape.rowMajor_val_two]; show r.val = r.val * 1 + 0; omega)

/-- A lane sum of an 8192×48 block at row r is the sum of that row's 48 entries. -/
theorem laneSum_apply (x : FVec Ideal S8192x48 .f32) (hφ : FKind.Formats .f32)
    (hacc : (0x00000000#32 : BitVec 32) = 0x00000000#32) (r : Fin 8192) :
    multiReduction .add [1] S8192 x 0x00000000#32 reduces_S8192x48_S8192 hφ hacc (ix1 r)
      = ∑ k : Fin 48, x (ix2 r k) := by
  refine (Ideal.multiReduction_add_single x 0x00000000#32 reduces_S8192x48_S8192 hφ hacc (ix1 r)).trans ?_
  refine Finset.sum_congr rfl fun k _ => congrArg x (funext fun a => Fin.ext ?_)
  match a with
  | ⟨0, _⟩ => rfl
  | ⟨1, _⟩ => rfl

/-- The payload at row r. -/
theorem pay_row (x0 x1 : FVec Ideal S8192x48 .f32) (r : Fin 8192) :
    k0_pay1 (F := Ideal) x0 x1 (ix2 r (0 : Fin 1)) = simRow (fun k => x0 (ix2 r k)) (fun k => x1 (ix2 r k)) := by
  unfold k0_pay1 simRow eps
  simp only [shapeCast_self]
  show Ideal.div (shapeCast S8192x1 _ _ (ix2 r 0)) (max (Ideal.sqrt (shapeCast S8192x1 _ _ (ix2 r 0)) * Ideal.sqrt (shapeCast S8192x1 _ _ (ix2 r 0))) _) = _
  rw [col_apply, col_apply, col_apply, laneSum_apply, laneSum_apply, laneSum_apply]
  rfl

end Cert.KernelIdeal.PayRow

end
-- ==== Proof.IdealRun.lean ====
/-
  The idealized kernel's run with every staging buffer's contents named.
  At a grid point t the two input buffers hold rows t·8192 … of the gathered arrays on the rows inside the arrays and
  words nothing names past the arrays' end (only the last point has such rows).  On the extended reals the value the
  body stores at row r depends on row r of each input only, so on the rows inside the array the result's buffer holds
  what it would hold had the unnamed rows been zero; that is the contents the proof data names, and it is all the
  write-back moves.
-/
import proofs.«161603_j33457795236058_2_alg».proof.Proof.BodyIdeal
import proofs.«161603_j33457795236058_2_alg».proof.Proof.PayRow
import proofs.«161603_j33457795236058_2_alg».proof.Proof.Gen.KernelIdeal.Points
import Idealize.ShloMosaic.Lib.Pipeline.FrameSuffix
import Idealize.ShloMosaic.Lib.Pipeline.Value

set_option maxRecDepth 16384

noncomputable section

namespace Cert.KernelIdeal.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Body Cert.KernelIdeal.PayRow Cert.CosSim
open Idealize.ShloMosaic.ValueIdx

variable (m : (ℓ : Loc nD τ sig) → Buf (Elt Ideal) ℓ) (ρ : Dev nD → PrngReg)

/-! ## How the blocks are cut at the arrays' end -/

/-- At every point the three windows keep the same number of rows, and the inputs all 48 lanes. -/
theorem rows_cut : ∀ t : Fin cfg0.N,
    win0_0.xsize (grid0.coords t) 0 = win0_2.xsize (grid0.coords t) 0
    ∧ win0_1.xsize (grid0.coords t) 0 = win0_2.xsize (grid0.coords t) 0
    ∧ win0_0.xsize (grid0.coords t) 1 = 48 ∧ win0_1.xsize (grid0.coords t) 1 = 48 :=
  (by decide +kernel : ∀ t : Fin grid0.N, _)

/-- The store's payload is what the result's buffer holds: the one store covers it, and the loads are whole. -/
theorem outBlock_eq {F : FTy → Type} [FloatOps F] (x0 x1 : Vec F S8192x48 .f32) : outBlock x0 x1 = k0_pay1 x0 x1 := by
  have hz : (![0, 0] : Fin 2 → Nat) = fun _ => 0 := funext fun a => by fin_cases a <;> rfl
  unfold outBlock
  rw [View.canon_unit_zero hz]
  simp only [View.ld_unit_zero (S := S8192x48) hz]

/-- Inside the part a fetch fills, a filled buffer does not depend on what it held before. -/
theorem fill0_indep (t : Fin cfg0.N) (d d' : S8192x48.Idx → EReal) (g : (win0_0.xblock (grid0.coords t)).Idx → EReal)
    (r : Fin 8192) (hr : r.val < win0_2.xsize (grid0.coords t) 0) (k : Fin 48) :
    win0_0.fill (grid0.coords t) d g (ix2 r k) = win0_0.fill (grid0.coords t) d' g (ix2 r k) := by
  have h : win0_0.moved (grid0.coords t) (ix2 r k) = true := (win0_0.moved_iff _ _).mpr fun a => by
    match a with
    | ⟨0, _⟩ => exact lt_of_lt_of_eq hr (rows_cut t).1.symm
    | ⟨1, _⟩ => exact lt_of_lt_of_eq k.isLt (rows_cut t).2.2.1.symm
  unfold Pipeline.Window.fill; rw [dif_pos h, dif_pos h]
theorem fill1_indep (t : Fin cfg0.N) (d d' : S8192x48.Idx → EReal) (g : (win0_1.xblock (grid0.coords t)).Idx → EReal)
    (r : Fin 8192) (hr : r.val < win0_2.xsize (grid0.coords t) 0) (k : Fin 48) :
    win0_1.fill (grid0.coords t) d g (ix2 r k) = win0_1.fill (grid0.coords t) d' g (ix2 r k) := by
  have h : win0_1.moved (grid0.coords t) (ix2 r k) = true := (win0_1.moved_iff _ _).mpr fun a => by
    match a with
    | ⟨0, _⟩ => exact lt_of_lt_of_eq hr (rows_cut t).2.1.symm
    | ⟨1, _⟩ => exact lt_of_lt_of_eq k.isLt (rows_cut t).2.2.2.symm
  unfold Pipeline.Window.fill; rw [dif_pos h, dif_pos h]

/-- An index of the result's block inside the part its write-back moves, by its row. -/
theorem xinj2_eq (t : Fin cfg0.N) (j : (win0_2.xblock (grid0.coords t)).Idx) :
    win0_2.xinj (grid0.coords t) j = ix2 (⟨(j 0).val, Nat.lt_of_lt_of_le (j 0).isLt (win0_2.xsize_le (grid0.coords t) 0)⟩ : Fin 8192) (0 : Fin 1) := by
  funext a
  match a with
  | ⟨0, _⟩ => rfl
  | ⟨1, h1⟩ =>
    apply Fin.ext
    show (j ⟨1, h1⟩).val = 0
    exact Nat.lt_one_iff.mp (Nat.lt_of_lt_of_le (j ⟨1, h1⟩).isLt (win0_2.xsize_le (grid0.coords t) ⟨1, h1⟩))

/-- ROW-LOCALITY: on the rows its write-back moves, what the body stores does not depend on what the input buffers
    hold past the arrays' end. -/
theorem cut_out_indep (t : Fin cfg0.N) (d0 d0' d1 d1' : S8192x48.Idx → EReal)
    (g0 : (win0_0.xblock (grid0.coords t)).Idx → EReal) (g1 : (win0_1.xblock (grid0.coords t)).Idx → EReal) :
    win0_2.cut (grid0.coords t) (outBlock (F := Ideal) (win0_0.fill (grid0.coords t) d0 g0) (win0_1.fill (grid0.coords t) d1 g1))
      = win0_2.cut (grid0.coords t) (outBlock (F := Ideal) (win0_0.fill (grid0.coords t) d0' g0) (win0_1.fill (grid0.coords t) d1' g1)) := by
  funext j
  show outBlock _ _ (win0_2.xinj (grid0.coords t) j) = outBlock _ _ (win0_2.xinj (grid0.coords t) j)
  rw [outBlock_eq, outBlock_eq, xinj2_eq, pay_row, pay_row]
  exact simRow_congr (fun k => fill0_indep t d0 d0' g0 _ (j 0).isLt k) (fun k => fill1_indep t d1 d1' g1 _ (j 0).isLt k)

/-! ## The proof data -/

/-- The filler of the rows past the arrays' end in the contents the proof data names. -/
abbrev zeros : S8192x48.Idx → EReal := fun _ => 0

/-- The proof data on core `c`: the staged arrays as the region finds them; after the body at point `t` each input's
    buffer at its block filled out with zeros, the result's at the body's value of those. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zeros (iblk m c 0 t)
    | ⟨1, _⟩ => win0_1.fill (grid0.coords t) zeros (iblk m c 1 t)
    | ⟨2, _⟩ => outBlock (F := Ideal) (win0_0.fill (grid0.coords t) zeros (iblk m c 0 t)) (win0_1.fill (grid0.coords t) zeros (iblk m c 1 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) :
    (dats m 0 c).after 0 t = win0_0.fill (grid0.coords t) zeros (iblk m c 0 t) := by dsimp only [dats]
theorem after0_1 (c : Dev nD) (t : Fin cfg0.N) :
    (dats m 0 c).after 1 t = win0_1.fill (grid0.coords t) zeros (iblk m c 1 t) := by dsimp only [dats]
theorem after0_2 (c : Dev nD) (t : Fin cfg0.N) :
    (dats m 0 c).after 2 t = outBlock (F := Ideal) (win0_0.fill (grid0.coords t) zeros (iblk m c 0 t)) (win0_1.fill (grid0.coords t) zeros (iblk m c 1 t)) := by
  dsimp only [dats]

/-- An input's buffer as the body finds it: just fetched, its block on the rows inside the array, anything past them. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- The result's buffer as the body finds it: anything (every point writes it back). -/
theorem before0_2 (c : Dev nD) (t : Fin cfg0.N) (d) : (dats m 0 c).before 2 t d = d :=
  (dats m 0 c).before_out_reset 2 rfl t (by
    by_cases h : t.val = 0
    · exact .inl h
    · exact .inr ⟨h, flush0_2 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t)))))

/-- The body at any point: it finds the inputs' buffers at their blocks filled out with anything and leaves them so;
    the result's buffer ends at the body's value of those, which on the rows the write-back moves is the named one. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1, before0_2 m c t d2]
  iapply (sound_kernel c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after0_0, show (cfg0.win 0).cut (cfg0.grid.coords t) (win0_0.fill (grid0.coords t) zeros (iblk m c 0 t)) = iblk m c 0 t from win0_0.cut_fill _ _ _]
    iexact H0
  isplitl [H1]
  · iexists d1
    rw [after0_1, show (cfg0.win 1).cut (cfg0.grid.coords t) (win0_1.fill (grid0.coords t) zeros (iblk m c 1 t)) = iblk m c 1 t from win0_1.cut_fill _ _ _]
    iexact H1
  · iexists outBlock (F := Ideal) (win0_0.fill (grid0.coords t) d0 (iblk m c 0 t)) (win0_1.fill (grid0.coords t) d1 (iblk m c 1 t))
    rw [after0_2, show (cfg0.win 2).fill (cfg0.grid.coords t) (outBlock (F := Ideal) (win0_0.fill (grid0.coords t) d0 (iblk m c 0 t)) (win0_1.fill (grid0.coords t) d1 (iblk m c 1 t)))
        ((cfg0.win 2).cut (cfg0.grid.coords t) (outBlock (F := Ideal) (win0_0.fill (grid0.coords t) zeros (iblk m c 0 t)) (win0_1.fill (grid0.coords t) zeros (iblk m c 1 t))))
        = outBlock (F := Ideal) (win0_0.fill (grid0.coords t) d0 (iblk m c 0 t)) (win0_1.fill (grid0.coords t) d1 (iblk m c 1 t))
      from win0_2.fill_congr_cut (grid0.coords t) (cut_out_indep t d0 zeros d1 zeros (iblk m c 0 t) (iblk m c 1 t))]
    iexact H2

/-- The library's body obligation, at every point (each window is described on the part its transfers move). -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; the staged arrays end at what the library computes from the proof
    data, every other buffer as the operations after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the idealized kernel program terminates, faults nowhere and leaves its arguments as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.IdealRun

end
-- ==== Proof.RefRun.lean ====
/-
  The reference program's run, read back.  @main is a straight line of host operations; listed in order they are
  `ops`, and every weakly fair execution ends with the result buffer at the operations' composed value of the three
  arguments and the arguments unchanged.  The composed value is stated through three named functions:
    * `rows x ix`      — the rows of `x` picked by the indices `ix` (a negative index first shifted by the row count);
    * `simRef a b`     — per edge, (Σₖ aₖ·bₖ) / max(√(Σₖ aₖ²)·√(Σₖ bₖ²), ε);
    * `meanTail s dst` — the values `s` summed into their destination nodes, divided by max(count, 1), and zero at a
                          node no edge points to.
-/
import proofs.«161603_j33457795236058_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 55 operations, in order (a called function's operations stand in its call's place, spelt `TRef.…`). -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x48_S1600000x1_S1600000x48_1_0_n_n_0_1_148 x i) : (⟨S100000x48, .f32⟩ : BufTy).Contents (Elt F) → (⟨S1600000x1, .i32⟩ : BufTy).Contents (Elt F) → (⟨S1600000x48, .f32⟩ : BufTy).Contents (Elt F)),
    nullary main_c_1 (constantI S_ 32 0#32),
    unary main_c_1 main_v7 (broadcastInDim S1600000 ![] bcast_S_S1600000 : (⟨S_, .i32⟩ : BufTy).Contents (Elt F) → (⟨S1600000, .i32⟩ : BufTy).Contents (Elt F)),
    binary main_arg2 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v9 (broadcastInDim S1600000 ![] bcast_S_S1600000 : (⟨S_, .i32⟩ : BufTy).Contents (Elt F) → (⟨S1600000, .i32⟩ : BufTy).Contents (Elt F)),
    binary main_arg2 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg2 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg0 main_v12 main_v13 ((fun x i => Host.gather gather_S100000x48_S1600000x1_S1600000x48_1_0_n_n_0_1_148 x i) : (⟨S100000x48, .f32⟩ : BufTy).Contents (Elt F) → (⟨S1600000x1, .i32⟩ : BufTy).Contents (Elt F) → (⟨S1600000x48, .f32⟩ : BufTy).Contents (Elt F)),
    binary main_v6 main_v13 main_v14 (mulf : (⟨S1600000x48, .f32⟩ : BufTy).Contents (Elt F) → (⟨S1600000x48, .f32⟩ : BufTy).Contents (Elt F) → (⟨S1600000x48, .f32⟩ : BufTy).Contents (Elt F)),
    nullary main_cst (constant S_ .f32 0x00000000#32),
    binary main_v14 main_cst main_v15 ((fun x v => Host.reduceAdd x v reducesTo_S1600000x48_S1600000_d1 h_S_) : (⟨S1600000x48, .f32⟩ : BufTy).Contents (Elt F) → (⟨S_, .f32⟩ : BufTy).Contents (Elt F) → (⟨S1600000, .f32⟩ : BufTy).Contents (Elt F)),
    TRef.binary (TRef.of (T := ⟨S1600000x48, .f32⟩) main_v6) (TRef.of (T := ⟨S1600000x48, .f32⟩) main_v6) (TRef.of (T := ⟨S1600000x48, .f32⟩) main_call0_v0) mulf,
    TRef.nullary (TRef.of (T := ⟨S_, .f32⟩) main_call0_cst) (constant S_ .f32 0x00000000#32),
    TRef.binary (TRef.of (T := ⟨S1600000x48, .f32⟩) main_call0_v0) (TRef.of (T := ⟨S_, .f32⟩) main_call0_cst) (TRef.of (T := ⟨S1600000, .f32⟩) main_call0_v1) (fun x v => Host.reduceAdd x v reducesTo_S1600000x48_S1600000_d1 h_S_),
    TRef.unary (TRef.of (T := ⟨S1600000, .f32⟩) main_call0_v1) (TRef.of (T := ⟨S1600000, .f32⟩) main_v16) Host.sqrt,
    TRef.binary (TRef.of (T := ⟨S1600000x48, .f32⟩) main_v13) (TRef.of (T := ⟨S1600000x48, .f32⟩) main_v13) (TRef.of (T := ⟨S1600000x48, .f32⟩) main_call1_v0) mulf,
    TRef.nullary (TRef.of (T := ⟨S_, .f32⟩) main_call1_cst) (constant S_ .f32 0x00000000#32),
    TRef.binary (TRef.of (T := ⟨S1600000x48, .f32⟩) main_call1_v0) (TRef.of (T := ⟨S_, .f32⟩) main_call1_cst) (TRef.of (T := ⟨S1600000, .f32⟩) main_call1_v1) (fun x v => Host.reduceAdd x v reducesTo_S1600000x48_S1600000_d1 h_S_),
    TRef.unary (TRef.of (T := ⟨S1600000, .f32⟩) main_call1_v1) (TRef.of (T := ⟨S1600000, .f32⟩) main_v17) Host.sqrt,
    binary main_v16 main_v17 main_v18 (mulf : (⟨S1600000, .f32⟩ : BufTy).Contents (Elt F) → (⟨S1600000, .f32⟩ : BufTy).Contents (Elt F) → (⟨S1600000, .f32⟩ : BufTy).Contents (Elt F)),
    nullary main_cst_3 (constant S_ .f32 0x322BCC77#32),
    unary main_cst_3 main_v19 (broadcastInDim S1600000 ![] bcast_S_S1600000 : (⟨S_, .f32⟩ : BufTy).Contents (Elt F) → (⟨S1600000, .f32⟩ : BufTy).Contents (Elt F)),
    binary main_v18 main_v19 main_v20 (maximumf : (⟨S1600000, .f32⟩ : BufTy).Contents (Elt F) → (⟨S1600000, .f32⟩ : BufTy).Contents (Elt F) → (⟨S1600000, .f32⟩ : BufTy).Contents (Elt F)),
    binary main_v15 main_v20 main_v21 (Host.divf : (⟨S1600000, .f32⟩ : BufTy).Contents (Elt F) → (⟨S1600000, .f32⟩ : BufTy).Contents (Elt F) → (⟨S1600000, .f32⟩ : BufTy).Contents (Elt F)),
    nullary main_cst_4 (constant S_ .f32 0x00000000#32),
    unary main_cst_4 main_v22 (broadcastInDim S100000 ![] bcast_S_S100000 : (⟨S_, .f32⟩ : BufTy).Contents (Elt F) → (⟨S100000, .f32⟩ : BufTy).Contents (Elt F)),
    unary main_arg2 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_5 (constant S_ .f32 0x3F800000#32),
    unary main_cst_5 main_v25 (broadcastInDim S1600000 ![] bcast_S_S1600000 : (⟨S_, .f32⟩ : BufTy).Contents (Elt F) → (⟨S1600000, .f32⟩ : BufTy).Contents (Elt F)),
    nullary main_cst_6 (constant S_ .f32 0x00000000#32),
    unary main_cst_6 main_v26 (broadcastInDim S100000 ![] bcast_S_S100000 : (⟨S_, .f32⟩ : BufTy).Contents (Elt F) → (⟨S100000, .f32⟩ : BufTy).Contents (Elt F)),
    unary main_arg2 main_v27 (broadcastInDim S1600000x1 ![0] bcast_S1600000_S1600000x1_0 : (⟨S1600000, .i32⟩ : BufTy).Contents (Elt F) → (⟨S1600000x1, .i32⟩ : BufTy).Contents (Elt F)),
    ternary main_v26 main_v27 main_v25 main_v28 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_7 (constant S_ .f32 0x00000000#32),
    unary main_cst_7 main_v29 (broadcastInDim S100000 ![] bcast_S_S100000 : (⟨S_, .f32⟩ : BufTy).Contents (Elt F) → (⟨S100000, .f32⟩ : BufTy).Contents (Elt F)),
    binary main_v28 main_v29 main_v30 (cmpf .ogt : (⟨S100000, .f32⟩ : BufTy).Contents (Elt F) → (⟨S100000, .f32⟩ : BufTy).Contents (Elt F) → (⟨S100000, .i1⟩ : BufTy).Contents (Elt F)),
    nullary main_cst_8 (constant S_ .f32 0x3F800000#32),
    unary main_cst_8 main_v31 (broadcastInDim S100000 ![] bcast_S_S100000 : (⟨S_, .f32⟩ : BufTy).Contents (Elt F) → (⟨S100000, .f32⟩ : BufTy).Contents (Elt F)),
    binary main_v28 main_v31 main_v32 (maximumf : (⟨S100000, .f32⟩ : BufTy).Contents (Elt F) → (⟨S100000, .f32⟩ : BufTy).Contents (Elt F) → (⟨S100000, .f32⟩ : BufTy).Contents (Elt F)),
    binary main_v24 main_v32 main_v33 (Host.divf : (⟨S100000, .f32⟩ : BufTy).Contents (Elt F) → (⟨S100000, .f32⟩ : BufTy).Contents (Elt F) → (⟨S100000, .f32⟩ : BufTy).Contents (Elt F)),
    nullary main_cst_9 (constant S_ .f32 0x00000000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v30) (TRef.of (T := ⟨S100000, .f32⟩) main_v33) (TRef.of (T := ⟨S100000, .f32⟩) main_call2_v1) (TRef.of (T := ⟨S100000, .f32⟩) main_v34) select ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩

/-- The rows of `x` at the indices `ix`, a negative index counted from the end. -/
def rows (x : FVec F S100000x48 .f32) (ix : IVec S1600000 32) : FVec F S1600000x48 .f32 :=
  Host.gather gather_S100000x48_S1600000x1_S1600000x48_1_0_n_n_0_1_148 x
    (broadcastInDim S1600000x1 ![0] bcast_S1600000_S1600000x1_0
      (select (cmpi .slt ix (broadcastInDim S1600000 ![] bcast_S_S1600000 (constantI S_ 32 0#32)))
        (addi ix (broadcastInDim S1600000 ![] bcast_S_S1600000 (constantI S_ 32 100000#32))) ix))

/-- A row's sum of squares, then its square root. -/
def rowNorm (a : FVec F S1600000x48 .f32) : FVec F S1600000 .f32 :=
  Host.sqrt (Host.reduceAdd (mulf a a) (constant (F := F) S_ .f32 0x00000000#32) reducesTo_S1600000x48_S1600000_d1 h_S_)

/-- Per edge: the two rows' inner product over the larger of the product of their norms and ε. -/
def simRef (a b : FVec F S1600000x48 .f32) : FVec F S1600000 .f32 :=
  Host.divf (Host.reduceAdd (mulf a b) (constant (F := F) S_ .f32 0x00000000#32) reducesTo_S1600000x48_S1600000_d1 h_S_)
    (maximumf (mulf (rowNorm a) (rowNorm b)) (broadcastInDim S1600000 ![] bcast_S_S1600000 (constant (F := F) S_ .f32 0x322BCC77#32)))

/-- How many edges point to each node, as floats. -/
def inCount (dst : IVec S1600000 32) : FVec F S100000 .f32 :=
  Host.scatterAdd scatter_S100000_S1600000x1_S1600000_n_0_0_1 (broadcastInDim S100000 ![] bcast_S_S100000 (constant (F := F) S_ .f32 0x00000000#32))
    (broadcastInDim S1600000x1 ![0] bcast_S1600000_S1600000x1_0 dst) (broadcastInDim S1600000 ![] bcast_S_S1600000 (constant (F := F) S_ .f32 0x3F800000#32))

/-- The mean of the per-edge values over each node's incoming edges; zero where there is none. -/
def meanTail (s : FVec F S1600000 .f32) (dst : IVec S1600000 32) : FVec F S100000 .f32 :=
  select (cmpf .ogt (inCount (F := F) dst) (broadcastInDim S100000 ![] bcast_S_S100000 (constant (F := F) S_ .f32 0x00000000#32)))
    (Host.divf
      (Host.scatterAdd scatter_S100000_S1600000x1_S1600000_n_0_0_1 (broadcastInDim S100000 ![] bcast_S_S100000 (constant (F := F) S_ .f32 0x00000000#32))
        (broadcastInDim S1600000x1 ![0] bcast_S1600000_S1600000x1_0 dst) s)
      (maximumf (inCount (F := F) dst) (broadcastInDim S100000 ![] bcast_S_S100000 (constant (F := F) S_ .f32 0x3F800000#32))))
    (broadcastInDim S100000 ![] bcast_S_S100000 (id (constant (F := F) S_ .f32 0x00000000#32)))

/-- The reference's result as a function of its three arguments. -/
def result (x : FVec F S100000x48 .f32) (src dst : IVec S1600000 32) : FVec F S100000 .f32 :=
  meanTail (simRef (rows x src) (rows x dst)) dst

set_option maxRecDepth 8192 in
set_option maxHeartbeats 2000000 in
/-- On every device, from any memory with zero counters: every weakly fair execution of @main terminates with the result
    buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v34).trans (by after_results_simp <;> rfl <;> (unfold result meanTail inCount simRef rowNorm rows; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.IdealValue.lean ====
/-
  From blocks to the array.  Point t's write-back puts rows t·8192 … of the result array (as many as lie inside it) at
  `simRow` of the same rows of the two gathered arrays, because its input blocks are those rows of those arrays; the 196
  blocks' rows cover the 1 600 000 rows (row e lies in block e / 8192); so after the run the result array is, row by row,
  `simRow` of the two gathered arrays' rows.
-/
import proofs.«161603_j33457795236058_2_alg».proof.Proof.IdealRun
import proofs.«161603_j33457795236058_2_alg».proof.Proof.PayRow
import proofs.«161603_j33457795236058_2_alg».proof.Proof.Gen.KernelIdeal.Points
import Idealize.ShloMosaic.Lib.Pipeline.FrameSuffix
import Idealize.ShloMosaic.Lib.Pipeline.Value

set_option maxRecDepth 16384

noncomputable section

namespace Cert.KernelIdeal.IdealValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Body Cert.KernelIdeal.PayRow Cert.KernelIdeal.IdealRun Cert.CosSim
open Idealize.ShloMosaic.ValueIdx

variable (m : (ℓ : Loc nD τ sig) → Buf (Elt Ideal) ℓ) (ρ : Dev nD → PrngReg)

/-- The per-edge values as an [E, 1] array, from two [E, 48] arrays of rows. -/
def simArr (a b : S1600000x48.Idx → EReal) : S1600000x1.Idx → EReal :=
  fun i => simRow (fun k => a (ix2 (i 0) k)) (fun k => b (ix2 (i 0) k))

/-- What the result array holds after the run: `simArr` of the two gathered arrays as the region finds them. -/
def finalArr (c : Dev nD) : S1600000x1.Idx → EReal :=
  simArr (V m c main_v6) (V m c main_v13)

/-- The three windows' blocks at a point sit at the same rows; the inputs' span the lanes from lane 0. -/
theorem blk_index : ∀ t : Fin cfg0.N,
    win0_0.index t 0 = win0_2.index t 0 ∧ win0_1.index t 0 = win0_2.index t 0
    ∧ win0_0.index t 1 = 0 ∧ win0_1.index t 1 = 0 :=
  (by decide +kernel : ∀ t : Fin grid0.N, _)

/-- Point t's result block starts at row t·8192 and keeps 8192 rows, the last one 2560; its one lane is lane 0. -/
theorem blk_rows : ∀ t : Fin cfg0.N,
    win0_2.index t 0 = t.val ∧ win0_2.index t 1 = 0 ∧ win0_2.xsize (grid0.coords t) 1 = 1
    ∧ win0_2.xsize (grid0.coords t) 0 = (if t.val = 195 then 2560 else 8192) :=
  (by decide +kernel : ∀ t : Fin grid0.N, _)

/-- Row r, lane k of the first input's named buffer at point t (r a row the write-back moves) is the gathered array's
    entry at the row the result block puts row r at. -/
theorem inBuf0_apply (c : Dev nD) (t : Fin cfg0.N) (j : (win0_2.xblock (grid0.coords t)).Idx) (k : Fin 48) :
    win0_0.fill (grid0.coords t) zeros (iblk m c 0 t)
        (ix2 (⟨(j 0).val, Nat.lt_of_lt_of_le (j 0).isLt (win0_2.xsize_le (grid0.coords t) 0)⟩ : Fin 8192) k)
      = V m c main_v6 (ix2 ((((cfg0.win 2).blk t).view.emb j) 0) k) := by
  have h : win0_0.moved (grid0.coords t) (ix2 (⟨(j 0).val, Nat.lt_of_lt_of_le (j 0).isLt (win0_2.xsize_le (grid0.coords t) 0)⟩ : Fin 8192) k) = true :=
    (win0_0.moved_iff _ _).mpr fun a => by
      match a with
      | ⟨0, _⟩ => exact lt_of_lt_of_eq (j 0).isLt (rows_cut t).1.symm
      | ⟨1, _⟩ => exact lt_of_lt_of_eq k.isLt (rows_cut t).2.2.1.symm
  unfold Pipeline.Window.fill; rw [dif_pos h]
  unfold iblk
  rw [View.read_apply]
  show V m c main_v6 _ = V m c main_v6 _
  congr 1
  funext a
  apply Fin.ext
  match a with
  | ⟨0, _⟩ =>
    show win0_0.index t 0 * 8192 + 1 * (j 0).val = win0_2.index t 0 * 8192 + 1 * (j 0).val
    rw [(blk_index t).1]
  | ⟨1, _⟩ =>
    show win0_0.index t 1 * 48 + 1 * k.val = k.val
    rw [(blk_index t).2.2.1]; omega

theorem inBuf1_apply (c : Dev nD) (t : Fin cfg0.N) (j : (win0_2.xblock (grid0.coords t)).Idx) (k : Fin 48) :
    win0_1.fill (grid0.coords t) zeros (iblk m c 1 t)
        (ix2 (⟨(j 0).val, Nat.lt_of_lt_of_le (j 0).isLt (win0_2.xsize_le (grid0.coords t) 0)⟩ : Fin 8192) k)
      = V m c main_v13 (ix2 ((((cfg0.win 2).blk t).view.emb j) 0) k) := by
  have h : win0_1.moved (grid0.coords t) (ix2 (⟨(j 0).val, Nat.lt_of_lt_of_le (j 0).isLt (win0_2.xsize_le (grid0.coords t) 0)⟩ : Fin 8192) k) = true :=
    (win0_1.moved_iff _ _).mpr fun a => by
      match a with
      | ⟨0, _⟩ => exact lt_of_lt_of_eq (j 0).isLt (rows_cut t).2.1.symm
      | ⟨1, _⟩ => exact lt_of_lt_of_eq k.isLt (rows_cut t).2.2.2.symm
  unfold Pipeline.Window.fill; rw [dif_pos h]
  unfold iblk
  rw [View.read_apply]
  show V m c main_v13 _ = V m c main_v13 _
  congr 1
  funext a
  apply Fin.ext
  match a with
  | ⟨0, _⟩ =>
    show win0_1.index t 0 * 8192 + 1 * (j 0).val = win0_2.index t 0 * 8192 + 1 * (j 0).val
    rw [(blk_index t).2.1]
  | ⟨1, _⟩ =>
    show win0_1.index t 1 * 48 + 1 * k.val = k.val
    rw [(blk_index t).2.2.2]; omega

/-- What point t writes back is its block of `finalArr`. -/
theorem flushed_eq (c : Dev nD) (t : Fin cfg0.N) :
    (dats m 0 c).flushed 2 t = ((cfg0.win 2).blk t).view.read (Elt Ideal) (finalArr m c) := by
  show (cfg0.win 2).cut (grid0.coords t) ((dats m 0 c).after 2 t) = _
  rw [after0_2]
  funext j
  show outBlock _ _ (win0_2.xinj (grid0.coords t) j) = _
  rw [outBlock_eq, xinj2_eq, pay_row, View.read_apply]
  unfold finalArr simArr
  exact simRow_congr (fun k => inBuf0_apply m c t j k) (fun k => inBuf1_apply m c t j k)

/-- Every row of the result array lies in the block of the point (row / 8192). -/
theorem rows_covered (i : S1600000x1.Idx) :
    ∃ t : Fin cfg0.N, (cfg0.win 2).flush t = true ∧ i ∈ ((cfg0.win 2).blk t).view.set := by
  have h0 : (i 0 : Nat) < 1600000 := (i 0).isLt
  have h1 : (i 1 : Nat) < 1 := (i 1).isLt
  have hN : cfg0.N = 196 := N_0
  have hlt : (i 0 : Nat) / 8192 < cfg0.N := by rw [hN]; omega
  refine ⟨⟨(i 0 : Nat) / 8192, hlt⟩, flush0_2 _, ?_⟩
  show i ∈ ((View.whole main_v14).slice (win0_2.rect ⟨(i 0 : Nat) / 8192, hlt⟩)).set
  rw [View.set_slice_whole, Rect.mem_set_unit]
  intro a
  obtain ⟨e0, e1, x1, x0⟩ := blk_rows ⟨(i 0 : Nat) / 8192, hlt⟩
  match a with
  | ⟨0, _⟩ =>
    show win0_2.index _ 0 * 8192 ≤ (i 0 : Nat) ∧ (i 0 : Nat) < win0_2.index _ 0 * 8192 + win0_2.xsize _ 0
    rw [e0, x0]
    show (i 0 : Nat) / 8192 * 8192 ≤ (i 0 : Nat) ∧ (i 0 : Nat) < (i 0 : Nat) / 8192 * 8192 + (if (i 0 : Nat) / 8192 = 195 then 2560 else 8192)
    split <;> omega
  | ⟨1, _⟩ =>
    show win0_2.index _ 1 * 1 ≤ (i 1 : Nat) ∧ (i 1 : Nat) < win0_2.index _ 1 * 1 + win0_2.xsize _ 1
    rw [e1, x1]; omega

/-- So the result array ends at `finalArr`. -/
theorem final (c : Dev nD) : (dats m 0 c).arrAt 2 cfg0.N = finalArr m c :=
  (dats m 0 c).arrAt_eq_of_cover 2 (finalArr m c) (fun t _ => flushed_eq m c t) rows_covered

end Cert.KernelIdeal.IdealValue

end
-- ==== Proof.RefValue.lean ====
/-
  The reference's per-edge value at an edge, on the extended reals: `simRef a b` at edge e is `simRow` of row e of `a`
  and row e of `b`.  The host's sum over the 48 lanes is its initial value, zero, plus the plain sum; the host's quotient,
  square root and maximum are the exact ones; the clamp is the same f32 word.
-/
import proofs.«161603_j33457795236058_2_alg».proof.Proof.RefRun
import proofs.«161603_j33457795236058_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Cert.CosSim
open Idealize.ShloMosaic Idealize.ShloMosaic.ValueIdx

/-- The host's square root at an index, at any shape. -/
theorem hostSqrt_apply {s : Shape} {φ : FTy} (x : FVec Ideal s φ) (i : s.Idx) :
    Host.sqrt x i = Ideal.sqrt (x i) := rfl

/-- The host's sum over the lanes of an [E, 48] array, from zero, at edge e: the sum of row e's 48 entries. -/
theorem hostRowSum_apply (x : FVec Ideal S1600000x48 .f32) (e : Fin 1600000) :
    Host.reduceAdd x (constant (F := Ideal) S_ .f32 0x00000000#32) reducesTo_S1600000x48_S1600000_d1 h_S_ (ix1 e)
      = ∑ k : Fin 48, x (ix2 e k) := by
  simp only [Host.reduceAdd, Ideal.hostReduceAdd_def]
  rw [Ideal.hostReduceAdd_single reducesTo_S1600000x48_S1600000_d1 (by decide)]
  rw [show (constant (F := Ideal) S_ .f32 0x00000000#32) (Shape.Idx.first h_S_) = 0 from Ideal.ofBits_zero_f32, zero_add]
  refine Finset.sum_congr rfl fun k _ => congrArg x (funext fun a => Fin.ext ?_)
  match a with
  | ⟨0, _⟩ => rfl
  | ⟨1, _⟩ => rfl

/-- The reference's per-edge value at edge e. -/
theorem simRef_apply (a b : FVec Ideal S1600000x48 .f32) (e : Fin 1600000) :
    simRef (F := Ideal) a b (ix1 e) = simRow (fun k => a (ix2 e k)) (fun k => b (ix2 e k)) := by
  have h1 := hostRowSum_apply (mulf a b) e
  have h2 := hostRowSum_apply (mulf a a) e
  have h3 := hostRowSum_apply (mulf b b) e
  have h4 : broadcastInDim S1600000 ![] bcast_S_S1600000 (constant (F := Ideal) S_ .f32 0x322BCC77#32) (ix1 e)
      = Ideal.ofBits .f32 0x322BCC77#32 := broadcastInDim_scalar_apply _ _ _
  unfold simRef rowNorm
  generalize Host.reduceAdd (mulf a b) (constant (F := Ideal) S_ .f32 0x00000000#32) reducesTo_S1600000x48_S1600000_d1 h_S_ = A at h1 ⊢
  generalize Host.reduceAdd (mulf a a) (constant (F := Ideal) S_ .f32 0x00000000#32) reducesTo_S1600000x48_S1600000_d1 h_S_ = B at h2 ⊢
  generalize Host.reduceAdd (mulf b b) (constant (F := Ideal) S_ .f32 0x00000000#32) reducesTo_S1600000x48_S1600000_d1 h_S_ = C at h3 ⊢
  generalize broadcastInDim S1600000 ![] bcast_S_S1600000 (constant (F := Ideal) S_ .f32 0x322BCC77#32) = D at h4 ⊢
  rw [hostDivf_apply, maximumf_apply, mulf_apply, hostSqrt_apply, hostSqrt_apply, h1, h2, h3, h4]
  unfold simRow eps
  simp only [mulf_apply]

end Cert.ReferenceIdeal.RefValue

end
-- ==== Proof.Bridge.lean ====
/-
  The two programs' results are one function of the arguments.
  Kernel side: the operations after the region reshape the [E, 1] result array to [E], scatter-add it by `dst`, count the
  edges per node, divide and select — the reference's `meanTail` of the reshaped array.  The reshaped array at edge e is
  `simRow` of row e of the two gathered arrays, and the reference's `simRef` at edge e is the same `simRow`; the gathered
  arrays are the reference's `rows` of the same arguments.  So the kernel's result is `meanTail (simRef (rows x src)
  (rows x dst)) dst`, the reference's result.
-/
import proofs.«161603_j33457795236058_2_alg».proof.Proof.IdealValue
import proofs.«161603_j33457795236058_2_alg».proof.Proof.RefValue
import Idealize.ShloMosaic.Lib.StableHlo.Run
import proofs.«161603_j33457795236058_2_alg».proof.Proof.PayRow
import proofs.«161603_j33457795236058_2_alg».proof.Proof.Gen.KernelIdeal.Points
import Idealize.ShloMosaic.Lib.Pipeline.FrameSuffix
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.IdealRun Cert.KernelIdeal.IdealValue Cert.CosSim
open Idealize.ShloMosaic.ValueIdx
open Cert.ReferenceIdeal.RefRun (rows simRef meanTail result)

variable (m : (ℓ : Loc nD τ sig) → Buf (Elt Ideal) ℓ) (ρ : Dev nD → PrngReg)

/-- The first gathered array as the region finds it: the reference's `rows` of the features and `src`. -/
theorem gathered_src (c : Dev nD) :
    (V m c main_v6 : S1600000x48.Idx → EReal)
      = rows (F := Ideal) (m ((c.tc : Thread nD τ).loc main_arg0)) (m ((c.tc : Thread nD τ).loc main_arg1)) := by
  dsimp only [V, V0]
  simp only [hostOps0, List.flatten_cons, List.flatten_nil, List.append_nil, List.cons_append, List.nil_append]
  after_results
  rfl

/-- The second: `rows` of the features and `dst`. -/
theorem gathered_dst (c : Dev nD) :
    (V m c main_v13 : S1600000x48.Idx → EReal)
      = rows (F := Ideal) (m ((c.tc : Thread nD τ).loc main_arg0)) (m ((c.tc : Thread nD τ).loc main_arg2)) := by
  dsimp only [V, V0]
  simp only [hostOps0, List.flatten_cons, List.flatten_nil, List.append_nil, List.cons_append, List.nil_append]
  after_results
  rfl

/-- The result array reshaped to [E] is the reference's per-edge values of the two gathered arrays. -/
theorem reshaped_final (a b : S1600000x48.Idx → EReal) :
    (fun i => shapeCast S1600000 (simArr a b) shapeCasts_S1600000x1_S1600000 i) = simRef (F := Ideal) a b := by
  funext i
  obtain ⟨e, rfl⟩ : ∃ e : Fin 1600000, i = ix1 e := ⟨i 0, eq_ix1 i⟩
  rw [Cert.ReferenceIdeal.RefValue.simRef_apply]
  exact shapeCast_apply (simArr a b) _ _ (ix2 e (0 : Fin 1)) (by
    rw [Shape.rowMajor_val_one, Shape.rowMajor_val_two]; show e.val * 1 + 0 = e.val; omega)

/-- How many edges point to each node, over the kernel program's own shape records. -/
def inCountK (dst : IVec S1600000 32) : FVec Ideal S100000 .f32 :=
  Host.scatterAdd scatter_S100000_S1600000x1_S1600000_n_0_0_1 (broadcastInDim S100000 ![] bcast_S_S100000 (constant (F := Ideal) S_ .f32 0x00000000#32))
    (broadcastInDim S1600000x1 ![0] bcast_S1600000_S1600000x1_0 dst) (broadcastInDim S1600000 ![] bcast_S_S1600000 (constant (F := Ideal) S_ .f32 0x3F800000#32))

/-- The scatter-mean of per-edge values, over the kernel program's own shape records. -/
def meanTailK (s : FVec Ideal S1600000 .f32) (dst : IVec S1600000 32) : FVec Ideal S100000 .f32 :=
  select (cmpf .ogt (inCountK dst) (broadcastInDim S100000 ![] bcast_S_S100000 (constant (F := Ideal) S_ .f32 0x00000000#32)))
    (Host.divf
      (Host.scatterAdd scatter_S100000_S1600000x1_S1600000_n_0_0_1 (broadcastInDim S100000 ![] bcast_S_S100000 (constant (F := Ideal) S_ .f32 0x00000000#32))
        (broadcastInDim S1600000x1 ![0] bcast_S1600000_S1600000x1_0 dst) s)
      (maximumf (inCountK dst) (broadcastInDim S100000 ![] bcast_S_S100000 (constant (F := Ideal) S_ .f32 0x3F800000#32))))
    (broadcastInDim S100000 ![] bcast_S_S100000 (id (constant (F := Ideal) S_ .f32 0x00000000#32)))

/-- Running two lines of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- The last three operations (the selection of the quotient where the count is positive, zero elsewhere), from any
    buffer contents. -/
theorem where_eq (W : Valuation τ sig (Elt Ideal)) :
    StableHlo.after hostOps1_1 W (Proc.devRef .tc main_v28)
      = select (W (Proc.devRef .tc main_v24)) (W (Proc.devRef .tc main_v27))
          (broadcastInDim S100000 ![] bcast_S_S100000 (id (W (Proc.devRef .tc main_cst_7)))) := by
  simp only [hostOps1_1]
  after_results
  rfl

/-- The count's positivity mask after the nineteen operations before them. -/
theorem mask_eq (W : Valuation τ sig (Elt Ideal)) :
    StableHlo.after hostOps1 W (Proc.devRef .tc main_v24)
      = cmpf .ogt (inCountK (W (Proc.devRef .tc main_arg2)))
          (broadcastInDim S100000 ![] bcast_S_S100000 (constant (F := Ideal) S_ .f32 0x00000000#32)) := by
  simp only [hostOps1]
  after_results_simp <;> (unfold inCountK; rfl)

/-- The quotient of the scattered sums by the clamped counts after them. -/
theorem quot_eq (W : Valuation τ sig (Elt Ideal)) :
    StableHlo.after hostOps1 W (Proc.devRef .tc main_v27)
      = Host.divf
          (Host.scatterAdd scatter_S100000_S1600000x1_S1600000_n_0_0_1 (broadcastInDim S100000 ![] bcast_S_S100000 (constant (F := Ideal) S_ .f32 0x00000000#32))
            (broadcastInDim S1600000x1 ![0] bcast_S1600000_S1600000x1_0 (W (Proc.devRef .tc main_arg2)))
            (fun i => shapeCast S1600000 (W (Proc.devRef .tc main_v14)) shapeCasts_S1600000x1_S1600000 i))
          (maximumf (inCountK (W (Proc.devRef .tc main_arg2))) (broadcastInDim S100000 ![] bcast_S_S100000 (constant (F := Ideal) S_ .f32 0x3F800000#32))) := by
  simp only [hostOps1]
  after_results_simp <;> (unfold inCountK; rfl)

/-- The zero that fills the nodes no edge points to. -/
theorem fill_eq (W : Valuation τ sig (Elt Ideal)) :
    StableHlo.after hostOps1 W (Proc.devRef .tc main_cst_7) = constant (F := Ideal) S_ .f32 0x00000000#32 := by
  simp only [hostOps1]
  after_results_simp <;> rfl

/-- The operations after the region, from any buffer contents `W`: the scatter-mean of the reshaped result array by `dst`. -/
theorem tail_eqK (W : Valuation τ sig (Elt Ideal)) :
    StableHlo.after (List.flatten [hostOps1, hostOps1_1]) W (Proc.devRef .tc main_v28)
      = meanTailK (fun i => shapeCast S1600000 (W (Proc.devRef .tc main_v14)) shapeCasts_S1600000x1_S1600000 i)
          (W (Proc.devRef .tc main_arg2)) := by
  rw [show List.flatten [hostOps1, hostOps1_1] = (hostOps1 ++ hostOps1_1 : List (HloOp τ sig (Elt Ideal))) from by
    simp only [List.flatten_cons, List.flatten_nil, List.append_nil]]
  rw [after_append, where_eq, mask_eq, quot_eq, fill_eq]
  rfl

/-- The two programs' shape records agree, so the kernel program's scatter-mean is the reference's. -/
theorem meanTailK_eq (s : FVec Ideal S1600000 .f32) (dst : IVec S1600000 32) :
    meanTailK s dst = meanTail (F := Ideal) s dst := by
  unfold meanTailK inCountK Cert.ReferenceIdeal.RefRun.meanTail Cert.ReferenceIdeal.RefRun.inCount
  rfl

theorem tail_eq (W : Valuation τ sig (Elt Ideal)) :
    StableHlo.after (List.flatten [hostOps1, hostOps1_1]) W (Proc.devRef .tc main_v28)
      = meanTail (F := Ideal) (fun i => shapeCast S1600000 (W (Proc.devRef .tc main_v14)) shapeCasts_S1600000x1_S1600000 i)
          (W (Proc.devRef .tc main_arg2)) :=
  (tail_eqK W).trans (meanTailK_eq _ _)

/-- The kernel program's result buffer after the run, as the reference's `result` of the kernel's arguments. -/
theorem kernel_result (c : Dev nD) :
    Pipeline.afterTail₀ cfgs (dats m) 0 (V0 m) [hostOps1, hostOps1_1] c main_v28
      = result (F := Ideal) (m ((c.tc : Thread nD τ).loc main_arg0)) (m ((c.tc : Thread nD τ).loc main_arg1))
          (m ((c.tc : Thread nD τ).loc main_arg2)) := by
  unfold Pipeline.afterTail₀
  rw [tail_eq]
  rw [show Pipeline.withArrays (cfgs 0).spec c (V0 m c) (fun w => (dats m 0 c).arrAt w (cfgs 0).N) (Proc.devRef .tc main_v14) = finalArr m c
      from (Pipeline.withArrays_arr spec0 launch0.win.arr_inj c _ _ 2).trans (final m c),
    show Pipeline.withArrays (cfgs 0).spec c (V0 m c) (fun w => (dats m 0 c).arrAt w (cfgs 0).N) (Proc.devRef .tc main_arg2) = m ((c.tc : Thread nD τ).loc main_arg2)
      from (Pipeline.withArrays_of_ne _ c (V0 m c) _ main_arg2 (by exact (by decide : ∀ w, Pipeline.arrRef spec0 w ≠ main_arg2))).trans (V_main_arg2 m c)]
  unfold finalArr result
  rw [reshaped_final, gathered_src, gathered_dst]

end Cert.KernelIdeal.Bridge

end
-- ==== Proof.lean ====
/-
  Edge cosine similarity with scatter-mean, kernel against reference, on the extended reals.

  Both programs gather the two endpoint rows of every edge from the features (a negative index first shifted by the
  row count), compute per edge
      sim = (Σₖ aₖ·bₖ) / max(√(Σₖ aₖ²) · √(Σₖ bₖ²), ε)          (ε the f32 word 0x322BCC77, the same in both),
  add the per-edge values into their destination nodes, count the edges per node, and return sum / max(count, 1) where
  the count is positive and zero elsewhere.  The reference does all of it in host operations.  The kernel program
  computes `sim` in a pipelined region over 196 blocks of 8192 edges (the last block has 2560 edges inside the arrays;
  its remaining staging rows hold words nothing names, and what the body computes from them is never written back), as
  an [E, 1] array that a host reshape turns into [E] before the same scatter-mean.

  Why the results are equal: a lane sum and a host sum from zero are the same plain sum of a row's 48 entries; the
  kernel's and the host's quotient, square root and maximum are the same exact operations; a value at row r depends on
  row r of the inputs only, so the unnamed rows do not reach the rows written back; the blocks' rows cover the edges;
  the gathers before the region and the scatter-mean after it are the reference's own terms.  No law is used that needs
  the inputs finite: the precondition is never opened.

  The claims: the word-level kernel's frame (its windows' contents left unnamed — at word level the row sum is a
  function nothing is known of), the idealized kernel's frame (from its run with every buffer named), the reference's
  frame (its run read back), `preserves` (the ideal pass rewrote nothing), and `algebraic` (both runs end at
  `result` of the arguments).
-/
import proofs.«161603_j33457795236058_2_alg».proof.Defs
import proofs.«161603_j33457795236058_2_alg».proof.Proof.Gen.Kernel
import proofs.«161603_j33457795236058_2_alg».proof.Proof.Gen.KernelIdeal
import proofs.«161603_j33457795236058_2_alg».proof.Proof.Gen.ReferenceIdeal
import proofs.«161603_j33457795236058_2_alg».proof.Proof.Gen.Pre_finite_inputs
import proofs.«161603_j33457795236058_2_alg».proof.Proof.FrameBits
import proofs.«161603_j33457795236058_2_alg».proof.Proof.IdealRun
import proofs.«161603_j33457795236058_2_alg».proof.Proof.RefRun
import proofs.«161603_j33457795236058_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.FrameRun.frame (F := Bits) m ρ

/-- So does the idealized kernel program. -/
theorem frame_kernelIdeal : Cert.frame_KernelIdeal := fun m ρ _ => Cert.KernelIdeal.IdealRun.frame m ρ

/-- And the reference: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the arguments both idealized programs end with their result buffers at the reference's
    `result` of the arguments: the kernel's by its run, the blocks-to-array step and the host tail; the reference's by
    its run read back. -/
theorem algebraic : Cert.algebraic_KernelIdeal_ReferenceIdeal := by
  intro m ρ m' ρ' _ hagree
  refine ⟨fun c => Cert.ReferenceIdeal.RefRun.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.IdealRun.run_main m ρ)
    · exact ((h c).2 Cert.KernelIdeal.main_v28 (Pipeline.mem_restRefs_of Cert.KernelIdeal.main_v28 (by decide) (by decide))).trans
        (Cert.KernelIdeal.Bridge.kernel_result m c)
    · exact ((h c).2 Cert.KernelIdeal.main_arg0 (Pipeline.mem_restRefs_of Cert.KernelIdeal.main_arg0 (by decide) (by decide))).trans
        (Cert.KernelIdeal.Gen.W_main_arg0 m (Cert.KernelIdeal.IdealRun.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.IdealRun.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.IdealRun.dats m) c)
  · refine (θ_run Cert.ReferenceIdeal.defs _ _).mono (fun _ h c => ⟨?_, (h c).2⟩)
      (Cert.ReferenceIdeal.RefRun.run (F := Ideal) m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
